-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x4096 : Shape := ⟨3, ![1, 16, 4096]⟩
abbrev S14336x4096 : Shape := ⟨2, ![14336, 4096]⟩
abbrev S_ : Shape := ⟨0, ![]⟩

class Facts : Prop where
  bcast_S_S1x16x4096 : S_.BroadcastsInDim S1x16x4096 (![] : Fin 0 → Fin S1x16x4096.rank)
  reducesTo_S1x16x4096_S_d0_1_2 : S1x16x4096.ReducesTo [0, 1, 2] S_
  h_S_ : 0 < S_.numel
  bcast_S_S14336x4096 : S_.BroadcastsInDim S14336x4096 (![] : Fin 0 → Fin S14336x4096.rank)
  reducesTo_S14336x4096_S_d0_1 : S14336x4096.ReducesTo [0, 1] S_

variable [Facts]

def fn {F : FTy → Type} [FloatOps F] (main_arg0 : FVec F S1x16x4096 .f32) (main_arg1 : FVec F S14336x4096 .f32) : IVec S_ 1 :=
  let main_v0 : FVec F S1x16x4096 .f32 := Host.absf main_arg0
  let main_cst : FVec F S_ .f32 := constant S_ .f32 0x7F800000#32
  let main_v1 : FVec F S1x16x4096 .f32 := broadcastInDim S1x16x4096 ![] bcast_S_S1x16x4096 main_cst
  let main_v2 : IVec S1x16x4096 1 := cmpf .olt main_v0 main_v1
  let main_c : IVec S_ 1 := constantI S_ 1 1#1
  let main_v3 : IVec S_ 1 := (fun x v => Host.reduce IntOp.andi x v reducesTo_S1x16x4096_S_d0_1_2 h_S_) main_v2 main_c
  let main_v4 : FVec F S14336x4096 .f32 := Host.absf main_arg1
  let main_cst_0 : FVec F S_ .f32 := constant S_ .f32 0x7F800000#32
  let main_v5 : FVec F S14336x4096 .f32 := broadcastInDim S14336x4096 ![] bcast_S_S14336x4096 main_cst_0
  let main_v6 : IVec S14336x4096 1 := cmpf .olt main_v4 main_v5
  let main_c_1 : IVec S_ 1 := constantI S_ 1 1#1
  let main_v7 : IVec S_ 1 := (fun x v => Host.reduce IntOp.andi x v reducesTo_S14336x4096_S_d0_1 h_S_) main_v6 main_c_1
  let main_v8 : IVec S_ 1 := andi main_v3 main_v7
  main_v8
-- ==== Kernel.lean ====
abbrev S1x16x4096 : Shape := ⟨3, ![1, 16, 4096]⟩
abbrev S14336x4096 : Shape := ⟨2, ![14336, 4096]⟩
abbrev S16x4096 : Shape := ⟨2, ![16, 4096]⟩
abbrev S16x14336 : Shape := ⟨2, ![16, 14336]⟩
abbrev S1024x4096 : Shape := ⟨2, ![1024, 4096]⟩
abbrev S16x1024 : Shape := ⟨2, ![16, 1024]⟩
abbrev S1024x256 : Shape := ⟨2, ![1024, 256]⟩
abbrev S1024 : Shape := ⟨1, ![1024]⟩
abbrev S1024x1 : Shape := ⟨2, ![1024, 1]⟩
abbrev S16x256 : Shape := ⟨2, ![16, 256]⟩
abbrev S1x16x14336 : Shape := ⟨3, ![1, 16, 14336]⟩

abbrev nBuf : Space → Nat
  | .hbm => 5
  | .vmem => 5
  | .smem => 0
  | _ => 0

abbrev bufTy : (tb : Table) → Fin (tcTables nBuf tb) → BufTy
  | .hbm, ⟨0, _⟩ => ⟨S1x16x4096, .f32⟩
  | .hbm, ⟨1, _⟩ => ⟨S14336x4096, .f32⟩
  | .hbm, ⟨2, _⟩ => ⟨S16x4096, .f32⟩
  | .hbm, ⟨3, _⟩ => ⟨S16x14336, .f32⟩
  | .hbm, ⟨4, _⟩ => ⟨S1x16x14336, .f32⟩
  | .local _ .vmem, ⟨0, _⟩ => ⟨S16x4096, .f32⟩
  | .local _ .vmem, ⟨1, _⟩ => ⟨S1024x4096, .f32⟩
  | .local _ .vmem, ⟨2, _⟩ => ⟨S1024x4096, .f32⟩
  | .local _ .vmem, ⟨3, _⟩ => ⟨S16x1024, .f32⟩
  | .local _ .vmem, ⟨4, _⟩ => ⟨S16x1024, .f32⟩
  | _, _ => ⟨S1x16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x16x4096_S16x4096 : S1x16x4096.ShapeCasts S16x4096
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  bitsLt_bf16_f32 : FTy.bits .bf16 < FTy.bits .f32
  inb_S1024x4096_S1024x256_0_0 : ∀ a, (![0, 0] : Fin 2 → Nat) a + S1024x256.size a ≤ S1024x4096.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  slices_S16x4096_o0_0_S16x256 : S16x4096.Slices ![0, 0] S16x256
  inb_S1024x4096_S1024x256_0_256 : ∀ a, (![0, 256] : Fin 2 → Nat) a + S1024x256.size a ≤ S1024x4096.size a
  slices_S16x4096_o0_256_S16x256 : S16x4096.Slices ![0, 256] S16x256
  inb_S1024x4096_S1024x256_0_512 : ∀ a, (![0, 512] : Fin 2 → Nat) a + S1024x256.size a ≤ S1024x4096.size a
  slices_S16x4096_o0_512_S16x256 : S16x4096.Slices ![0, 512] S16x256
  inb_S1024x4096_S1024x256_0_768 : ∀ a, (![0, 768] : Fin 2 → Nat) a + S1024x256.size a ≤ S1024x4096.size a
  slices_S16x4096_o0_768_S16x256 : S16x4096.Slices ![0, 768] S16x256
  inb_S1024x4096_S1024x256_0_1024 : ∀ a, (![0, 1024] : Fin 2 → Nat) a + S1024x256.size a ≤ S1024x4096.size a
  slices_S16x4096_o0_1024_S16x256 : S16x4096.Slices ![0, 1024] S16x256
  inb_S1024x4096_S1024x256_0_1280 : ∀ a, (![0, 1280] : Fin 2 → Nat) a + S1024x256.size a ≤ S1024x4096.size a
  slices_S16x4096_o0_1280_S16x256 : S16x4096.Slices ![0, 1280] S16x256
  inb_S1024x4096_S1024x256_0_1536 : ∀ a, (![0, 1536] : Fin 2 → Nat) a + S1024x256.size a ≤ S1024x4096.size a
  slices_S16x4096_o0_1536_S16x256 : S16x4096.Slices ![0, 1536] S16x256
  inb_S1024x4096_S1024x256_0_1792 : ∀ a, (![0, 1792] : Fin 2 → Nat) a + S1024x256.size a ≤ S1024x4096.size a
  slices_S16x4096_o0_1792_S16x256 : S16x4096.Slices ![0, 1792] S16x256
  inb_S1024x4096_S1024x256_0_2048 : ∀ a, (![0, 2048] : Fin 2 → Nat) a + S1024x256.size a ≤ S1024x4096.size a
  slices_S16x4096_o0_2048_S16x256 : S16x4096.Slices ![0, 2048] S16x256
  inb_S1024x4096_S1024x256_0_2304 : ∀ a, (![0, 2304] : Fin 2 → Nat) a + S1024x256.size a ≤ S1024x4096.size a
  slices_S16x4096_o0_2304_S16x256 : S16x4096.Slices ![0, 2304] S16x256
  inb_S1024x4096_S1024x256_0_2560 : ∀ a, (![0, 2560] : Fin 2 → Nat) a + S1024x256.size a ≤ S1024x4096.size a
  slices_S16x4096_o0_2560_S16x256 : S16x4096.Slices ![0, 2560] S16x256
  inb_S1024x4096_S1024x256_0_2816 : ∀ a, (![0, 2816] : Fin 2 → Nat) a + S1024x256.size a ≤ S1024x4096.size a
  slices_S16x4096_o0_2816_S16x256 : S16x4096.Slices ![0, 2816] S16x256
  inb_S1024x4096_S1024x256_0_3072 : ∀ a, (![0, 3072] : Fin 2 → Nat) a + S1024x256.size a ≤ S1024x4096.size a
  slices_S16x4096_o0_3072_S16x256 : S16x4096.Slices ![0, 3072] S16x256
  inb_S1024x4096_S1024x256_0_3328 : ∀ a, (![0, 3328] : Fin 2 → Nat) a + S1024x256.size a ≤ S1024x4096.size a
  slices_S16x4096_o0_3328_S16x256 : S16x4096.Slices ![0, 3328] S16x256
  inb_S1024x4096_S1024x256_0_3584 : ∀ a, (![0, 3584] : Fin 2 → Nat) a + S1024x256.size a ≤ S1024x4096.size a
  slices_S16x4096_o0_3584_S16x256 : S16x4096.Slices ![0, 3584] S16x256
  inb_S1024x4096_S1024x256_0_3840 : ∀ a, (![0, 3840] : Fin 2 → Nat) a + S1024x256.size a ≤ S1024x4096.size a
  slices_S16x4096_o0_3840_S16x256 : S16x4096.Slices ![0, 3840] S16x256
  inb_S16x1024_S16x1024_0_0 : ∀ a, (![0, 0] : Fin 2 → Nat) a + S16x1024.size a ≤ S16x1024.size a
  h_S16x1024 : 0 < S16x1024.numel
  bcast_S16x14336_S1x16x14336_1_2 : S16x14336.BroadcastsInDim S1x16x14336 (![1, 2] : Fin 2 → Fin S1x16x14336.rank)
  dot_S16x256_S1024x256_S16x1024_1_1_0_0_n_n_wf : DotDims.WF S16x256 S1024x256 S16x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x4096.size a ≤ S16x4096.size a
  hwx0_0 : ∀ i : grid0.Coords, EltTy.bits .f32 = 32 ∨ (Rect.block (s := S16x4096) S16x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S14336x4096.size a
  hwx0_1 : ∀ i : grid0.Coords, EltTy.bits .f32 = 32 ∨ (Rect.block (s := S14336x4096) S1024x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x14336.size a
  hwx0_2 : ∀ i : grid0.Coords, EltTy.bits .f32 = 32 ∨ (Rect.block (s := S16x14336) S16x1024.size (cc0_transform_2 i) (hinb0_2 i)).WholeWords (EltTy.packing .f32)

variable [Facts₀]

def dot_S16x256_S1024x256_S16x1024_1_1_0_0_n_n : DotDims S16x256 S1024x256 S16x1024 where
  lhsContracting := [1]
  rhsContracting := [1]
  lhsNonContracting := [0]
  rhsNonContracting := [0]
  lhsBatch := []
  rhsBatch := []
  wf := dot_S16x256_S1024x256_S16x1024_1_1_0_0_n_n_wf

abbrev win0_0 : Pipeline.Window sig grid0 :=
  Pipeline.Window.ofSpec (Memref.whole main_v0) S16x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x16x4096 : Shape := ⟨3, ![1, 16, 4096]⟩
abbrev S14336x4096 : Shape := ⟨2, ![14336, 4096]⟩
abbrev S14336x16x256 : Shape := ⟨3, ![14336, 16, 256]⟩
abbrev S_ : Shape := ⟨0, ![]⟩
abbrev S14336x16 : Shape := ⟨2, ![14336, 16]⟩
abbrev S14336x16x1 : Shape := ⟨3, ![14336, 16, 1]⟩
abbrev S16x4096 : Shape := ⟨2, ![16, 4096]⟩
abbrev S16x14336 : Shape := ⟨2, ![16, 14336]⟩
abbrev S1x16x14336 : Shape := ⟨3, ![1, 16, 14336]⟩

abbrev nBuf : Space → Nat
  | .hbm => 30
  | .vmem => 0
  | .smem => 0
  | _ => 0

abbrev bufTy : (tb : Table) → Fin (tcTables nBuf tb) → BufTy
  | .hbm, ⟨0, _⟩ => ⟨S1x16x4096, .f32⟩
  | .hbm, ⟨1, _⟩ => ⟨S14336x4096, .f32⟩
  | .hbm, ⟨2, _⟩ => ⟨S14336x16x256, .f32⟩
  | .hbm, ⟨3, _⟩ => ⟨S14336x16x256, .f32⟩
  | .hbm, ⟨4, _⟩ => ⟨S_, .f32⟩
  | .hbm, ⟨5, _⟩ => ⟨S14336x16, .f32⟩
  | .hbm, ⟨6, _⟩ => ⟨S14336x16x1, .f32⟩
  | .hbm, ⟨7, _⟩ => ⟨S_, .f32⟩
  | .hbm, ⟨8, _⟩ => ⟨S14336x16x1, .f32⟩
  | .hbm, ⟨9, _⟩ => ⟨S14336x16x1, .f32⟩
  | .hbm, ⟨10, _⟩ => ⟨S_, .f32⟩
  | .hbm, ⟨11, _⟩ => ⟨S14336x16x1, .f32⟩
  | .hbm, ⟨12, _⟩ => ⟨S14336x16x1, .f32⟩
  | .hbm, ⟨13, _⟩ => ⟨S14336x16x256, .f32⟩
  | .hbm, ⟨14, _⟩ => ⟨S14336x16x256, .f32⟩
  | .hbm, ⟨15, _⟩ => ⟨S14336x16x256, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S14336x16x256, .f32⟩
  | .hbm, ⟨20, _⟩ => ⟨S14336x16x256, .f32⟩
  | .hbm, ⟨21, _⟩ => ⟨S_, .f32⟩
  | .hbm, ⟨22, _⟩ => ⟨S14336x16x256, .f32⟩
  | .hbm, ⟨23, _⟩ => ⟨S14336x16x256, .f32⟩
  | .hbm, ⟨24, _⟩ => ⟨S14336x16x256, .f32⟩
  | .hbm, ⟨25, _⟩ => ⟨S14336x16x256, .f32⟩
  | .hbm, ⟨26, _⟩ => ⟨S14336x4096, .f32⟩
  | .hbm, ⟨27, _⟩ => ⟨S16x4096, .f32⟩
  | .hbm, ⟨28, _⟩ => ⟨S16x14336, .f32⟩
  | .hbm, ⟨29, _⟩ => ⟨S1x16x14336, .f32⟩
  | _, _ => ⟨S1x16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  shapeCasts_S14336x4096_S14336x16x256 : S14336x4096.ShapeCasts S14336x16x256
  reducesTo_S14336x16x256_S14336x16_d2 : S14336x16x256.ReducesTo [2] S14336x16
  h_S_ : 0 < S_.numel
  bcast_S14336x16_S14336x16x1_0_1 : S14336x16.BroadcastsInDim S14336x16x1 (![0, 1] : Fin 2 → Fin S14336x16x1.rank)
  bcast_S_S14336x16x1 : S_.BroadcastsInDim S14336x16x1 (![] : Fin 0 → Fin S14336x16x1.rank)
  bcast_S14336x16x1_S14336x16x256_0_1_2 : S14336x16x1.BroadcastsInDim S14336x16x256 (![0, 1, 2] : Fin 3 → Fin S14336x16x256.rank)
  bcast_S_S14336x16x256 : S_.BroadcastsInDim S14336x16x256 (![] : Fin 0 → Fin S14336x16x256.rank)
  shapeCasts_S14336x16x256_S14336x4096 : S14336x16x256.ShapeCasts S14336x4096
  shapeCasts_S1x16x4096_S16x4096 : S1x16x4096.ShapeCasts S16x4096
  bcast_S16x14336_S1x16x14336_1_2 : S16x14336.BroadcastsInDim S1x16x14336 (![1, 2] : Fin 2 → Fin S1x16x14336.rank)
  dot_S16x4096_S14336x4096_S16x14336_1_1_0_0_n_n_wf : DotDims.WF S16x4096 S14336x4096 S16x14336 [1] [1] [0] [0] [] []

variable [Facts₀]

def dot_S16x4096_S14336x4096_S16x14336_1_1_0_0_n_n : DotDims S16x4096 S14336x4096 S16x14336 where
  lhsContracting := [1]
  rhsContracting := [1]
  lhsNonContracting := [0]
  rhsNonContracting := [0]
  lhsBatch := []
  rhsBatch := []
  wf := dot_S16x4096_S14336x4096_S16x14336_1_1_0_0_n_n_wf

class Facts : Prop extends Facts₀ where

variable [Facts]
-- ==== Proof.GroupTerm.lean ====
/-
  One group's contribution to the output tile, and the tile as the sixteen contributions accumulated.

  The kernel body treats the sixteen 256-column groups of its weight block alike: from a group `w` (1024 rows by
  256 columns) it takes each row's largest absolute value, forms the row's scale, multiplies `w` by the reciprocal
  of the scale, rounds, clips to the levels -8 … 7, multiplies back by the scale, and multiplies the matching 256
  columns of the activations by the transpose of that. The tile it stores is zero plus these sixteen products, added
  one after another. This module names the single group's computation once and states the tile in terms of it; the
  equation holds by unfolding the definitions, for any reading of the float operations.
-/
import proofs.«136252_j54803782697499_2_alg».proof.Proof.Gen.KernelIdeal.Frame
import Idealize.ShloMosaic.Lib.Pipeline.Value

set_option maxRecDepth 16384

noncomputable section

namespace Cert.KernelIdeal.Group

open Cert.KernelIdeal Cert.KernelIdeal.Gen Idealize.ShloMosaic

variable {F : FTy → Type} [FloatOps F]

/-- Each row's scale, as a column: the row's largest absolute value divided by 7, but at least the floor. -/
def scaleCol (w : Vec F S1024x256 .f32) : FVec F S1024x1 .f32 :=
  maximumf
    (divf (shapeCast S1024x1 (multiReduction .maximumf [1] S1024 (absf w) 0xFF800000#32 reduces_S1024x256_S1024 (.inl rfl) rfl)
        shapeCasts_S1024_S1024x1) (broadcast S1024x1 (Scalar.ofBits .f32 0x40E00000#32)))
    (broadcast S1024x1 (Scalar.ofBits .f32 0x3089705F#32))

/-- The quantized levels: the group times the reciprocal of its row's scale, rounded and clipped to -8 … 7. -/
def levels (w : Vec F S1024x256 .f32) : FVec F S1024x256 .f32 :=
  minimumf (broadcast S1024x256 (Scalar.ofBits .f32 0x40E00000#32))
    (maximumf (broadcast S1024x256 (Scalar.ofBits .f32 0xC1000000#32))
      (roundeven (mulf w (broadcastTo S1024x256
        (divf (broadcast S1024x1 (Scalar.ofBits .f32 0x3F800000#32)) (scaleCol w)) broadcasts_S1024x1_S1024x256))))

/-- The dequantized group: the levels times the row's scale. -/
def dequantized (w : Vec F S1024x256 .f32) : FVec F S1024x256 .bf16 :=
  truncf .bf16 (mulf (levels w) (broadcastTo S1024x256 (scaleCol w) broadcasts_S1024x1_S1024x256)) bitsLt_bf16_f32

/-- One group's contribution: 256 columns of the activations times the transpose of the dequantized group. -/
def product (xb : FVec F S16x4096 .bf16) (off : Fin 2 → Nat) (h : S16x4096.Slices off S16x256)
    (w : Vec F S1024x256 .f32) : FVec F S16x1024 .f32 :=
  matmul dot_S16x256_S1024x256_S16x1024_1_1_0_0_n_n none (extractStridedSlice S16x256 off xb h) (dequantized w)
    (constant S16x1024 .f32 0x00000000#32)

/-- The stored tile: zero plus the sixteen groups' contributions, added in order. -/
def tile (x0 : Vec F S16x4096 .f32) (x1 : Vec F S1024x4096 .f32) : FVec F S16x1024 .f32 :=
  addf (addf (addf (addf (addf (addf (addf (addf (addf (addf (addf (addf (addf (addf (addf (addf (broadcast S16x1024 (Scalar.ofBits .f32 0x00000000#32))
      (product (k0_pay2 (View.ld x0 r0_0)) ![0, 0] slices_S16x4096_o0_0_S16x256 (View.ld x1 r0_1)))
      (product (k0_pay2 (View.ld x0 r0_0)) ![0, 256] slices_S16x4096_o0_256_S16x256 (View.ld x1 r0_2)))
      (product (k0_pay2 (View.ld x0 r0_0)) ![0, 512] slices_S16x4096_o0_512_S16x256 (View.ld x1 r0_3)))
      (product (k0_pay2 (View.ld x0 r0_0)) ![0, 768] slices_S16x4096_o0_768_S16x256 (View.ld x1 r0_4)))
      (product (k0_pay2 (View.ld x0 r0_0)) ![0, 1024] slices_S16x4096_o0_1024_S16x256 (View.ld x1 r0_5)))
      (product (k0_pay2 (View.ld x0 r0_0)) ![0, 1280] slices_S16x4096_o0_1280_S16x256 (View.ld x1 r0_6)))
      (product (k0_pay2 (View.ld x0 r0_0)) ![0, 1536] slices_S16x4096_o0_1536_S16x256 (View.ld x1 r0_7)))
      (product (k0_pay2 (View.ld x0 r0_0)) ![0, 1792] slices_S16x4096_o0_1792_S16x256 (View.ld x1 r0_8)))
      (product (k0_pay2 (View.ld x0 r0_0)) ![0, 2048] slices_S16x4096_o0_2048_S16x256 (View.ld x1 r0_9)))
      (product (k0_pay2 (View.ld x0 r0_0)) ![0, 2304] slices_S16x4096_o0_2304_S16x256 (View.ld x1 r0_10)))
      (product (k0_pay2 (View.ld x0 r0_0)) ![0, 2560] slices_S16x4096_o0_2560_S16x256 (View.ld x1 r0_11)))
      (product (k0_pay2 (View.ld x0 r0_0)) ![0, 2816] slices_S16x4096_o0_2816_S16x256 (View.ld x1 r0_12)))
      (product (k0_pay2 (View.ld x0 r0_0)) ![0, 3072] slices_S16x4096_o0_3072_S16x256 (View.ld x1 r0_13)))
      (product (k0_pay2 (View.ld x0 r0_0)) ![0, 3328] slices_S16x4096_o0_3328_S16x256 (View.ld x1 r0_14)))
      (product (k0_pay2 (View.ld x0 r0_0)) ![0, 3584] slices_S16x4096_o0_3584_S16x256 (View.ld x1 r0_15)))
      (product (k0_pay2 (View.ld x0 r0_0)) ![0, 3840] slices_S16x4096_o0_3840_S16x256 (View.ld x1 r0_16))

/-- What the body leaves in the output buffer is that tile. -/
theorem out_eq_tile (x0 : Vec F S16x4096 .f32) (x1 : Vec F S1024x4096 .f32) : out0_2 x0 x1 = tile x0 x1 := by
  unfold out0_2
  rw [View.canon_unit_zero (funext fun a => by fin_cases a <;> rfl)]
  rfl

end Cert.KernelIdeal.Group

end
-- ==== Proof.QuantLaw.lean ====
/-
  Symmetric four-bit group quantization, as scalar mathematics on the extended reals, and the result both programs
  compute.

  A group is 256 consecutive entries of one weight row. Its scale is `max (A / 7) ε`, where `A` is the largest
  absolute value in the group and `ε` a small positive number, so the scale is never zero. An entry `w` is
  quantized to `min 7 (max (-8) (round (w / s)))` and dequantized by multiplying back by `s`. The result is the
  product of the activations with the transpose of the dequantized weights: entry `(s, o)` is the sum over the 4096
  columns `k` of `X s k` times the dequantized `W o k`.

  Two laws are proved here. First: multiplying by the reciprocal `1 / s` is dividing by `s` whenever `s ≠ 0`
  (both are `w * s⁻¹`), so quantizing `w * (1 / s)` and quantizing `w / s` give the same number; no finiteness is
  needed. Second: a sum over 4096 consecutive indices is the sum of sixteen block sums of 256, accumulated from
  zero one block after another; this is commutativity and associativity of addition only.
-/
import Idealize.ShloMosaic.PureOps.Ideal
import Idealize.ShloMosaic.PureOps.Ideal.Laws

noncomputable section

namespace Cert.Quant

open Idealize.ShloMosaic

/-- The positive floor of a group's scale (the single-precision number nearest to 1e-9). -/
abbrev floorW : EReal := Ideal.ofBits .f32 0x3089705F#32
/-- The largest quantized level, 7. -/
abbrev topW : EReal := Ideal.ofBits .f32 0x40E00000#32
/-- The smallest quantized level, -8. -/
abbrev botW : EReal := Ideal.ofBits .f32 0xC1000000#32
/-- The number one, as the bit pattern a program writes it with. -/
abbrev oneW : EReal := Ideal.ofBits .f32 0x3F800000#32
/-- Minus infinity, the neutral element of a maximum. -/
abbrev negInfW : EReal := Ideal.ofBits .f32 0xFF800000#32

/-- The floor is 9007199 / 2^53, a positive real. -/
theorem floorW_pos : 0 < floorW := by
  simp [Ideal.ofBits, Ideal.ieee]
  rw [← EReal.coe_mul]
  exact EReal.coe_pos.mpr (by positivity)

/-- The pattern of one denotes one. -/
theorem oneW_eq : oneW = 1 := by
  simp [Ideal.ofBits, Ideal.ieee]
  rw [← EReal.coe_mul, ← EReal.coe_one]
  exact congrArg _ (by norm_num)

/-! ## One entry -/

/-- A group's scale from its largest absolute value `A`. -/
def scale (A : EReal) : EReal := max (Ideal.div A topW) floorW

/-- The scale is at least the positive floor, so it is not zero. -/
theorem scale_ne_zero (A : EReal) : scale A ≠ 0 :=
  (lt_of_lt_of_le floorW_pos (le_max_right _ _)).ne'

/-- Round to the nearest integer, ties to even, and clip to the levels -8 … 7. -/
def level (q : EReal) : EReal := min topW (max botW (Ideal.liftRound Ideal.roundHalfEven q))

/-- An entry `w` of a group whose largest absolute value is `A`, quantized and dequantized. -/
def dequant (w A : EReal) : EReal := level (Ideal.div w (scale A)) * scale A

/-- Off zero, the product with the reciprocal is the quotient: both are `w * s⁻¹`. -/
theorem mul_recip (w s : EReal) (hs : s ≠ 0) : w * Ideal.div oneW s = Ideal.div w s := by
  rw [oneW_eq, Ideal.div, Ideal.div, if_neg hs, if_neg hs, one_mul]

/-- So quantizing through the reciprocal of the scale gives the same dequantized entry. -/
theorem dequant_of_recip (w A : EReal) : level (w * Ideal.div oneW (scale A)) * scale A = dequant w A := by
  rw [mul_recip _ _ (scale_ne_zero A)]
  rfl

/-- The largest absolute value among a group's 256 entries. -/
def absMax (f : Fin 256 → EReal) : EReal :=
  (Finset.univ : Finset (Fin 256)).fold max negInfW fun c => max (f c) (-(f c))

/-! ## The result -/

/-- Column `c` of the group that column `k` lies in. -/
def groupCol (k : Fin 4096) (c : Fin 256) : Fin 4096 :=
  ⟨256 * (k.val / 256) + c.val, by have := k.isLt; have := c.isLt; omega⟩

/-- The dequantized weight at row `o`, column `k`: the entry against its own group's largest absolute value. -/
def dequantW (W : Fin 14336 → Fin 4096 → EReal) (o : Fin 14336) (k : Fin 4096) : EReal :=
  dequant (W o k) (absMax fun c => W o (groupCol k c))

/-- The result: the activations times the transpose of the dequantized weights. -/
def result (X : Fin 16 → Fin 4096 → EReal) (W : Fin 14336 → Fin 4096 → EReal) (s : Fin 16) (o : Fin 14336) : EReal :=
  ∑ k : Fin 4096, X s k * dequantW W o k

/-! ## A sum over 4096 indices, block by block -/

section Sums
variable {M : Type*} [AddCommMonoid M]

/-- The sum over the 256 indices starting at `off`. -/
def blockSum (f : Fin 4096 → M) (off : ℕ) (h : off + 256 ≤ 4096) : M :=
  ∑ c : Fin 256, f ⟨off + c.val, by have := c.isLt; omega⟩

/-- Index `k` is `256 g + c` for exactly one pair `(g, c)`: the sum splits into sixteen groups of 256. -/
theorem sum_groups (f : Fin 4096 → M) :
    ∑ k, f k = ∑ g : Fin 16, ∑ c : Fin 256, f ⟨256 * g.val + c.val, by have := g.isLt; have := c.isLt; omega⟩ := by
  calc ∑ k : Fin 4096, f k = ∑ p : Fin 16 × Fin 256, f (finProdFinEquiv p) :=
        (Equiv.sum_comp (finProdFinEquiv : Fin 16 × Fin 256 ≃ Fin 4096) f).symm
    _ = ∑ g : Fin 16, ∑ c : Fin 256, f (finProdFinEquiv (g, c)) := Fintype.sum_prod_type _
    _ = _ := Finset.sum_congr rfl fun g _ => Finset.sum_congr rfl fun c _ => congrArg f (Fin.ext (by
          show c.val + 256 * g.val = 256 * g.val + c.val
          omega))

/-- A sum of sixteen terms, accumulated from zero in order. -/
theorem sum_sixteen (C : Fin 16 → M) :
    ∑ g, C g = 0 + C 0 + C 1 + C 2 + C 3 + C 4 + C 5 + C 6 + C 7 + C 8 + C 9 + C 10 + C 11 + C 12 + C 13 + C 14 + C 15 := by
  simp only [Fin.sum_univ_castSucc, Fin.sum_univ_zero]
  rfl

/-- The sum over all 4096 indices is the sixteen block sums accumulated from zero, first block first. -/
theorem sum_blocks (f : Fin 4096 → M) :
    ∑ k, f k = 0 + blockSum f 0 (by decide) + blockSum f 256 (by decide) + blockSum f 512 (by decide) + blockSum f 768 (by decide) + blockSum f 1024 (by decide) + blockSum f 1280 (by decide) + blockSum f 1536 (by decide) + blockSum f 1792 (by decide) + blockSum f 2048 (by decide) + blockSum f 2304 (by decide) + blockSum f 2560 (by decide) + blockSum f 2816 (by decide) + blockSum f 3072 (by decide) + blockSum f 3328 (by decide) + blockSum f 3584 (by decide) + blockSum f 3840 (by decide) := by
  rw [sum_groups, sum_sixteen]
  rfl

end Sums

end Cert.Quant

end
-- ==== Proof.LibColumn.lean ====
/-
  A column broadcast over many columns, read at an index: an `[a, 1]` array broadcast to `[a, b]` reads, at
  `(p, c)`, the column's entry of row `p`.
-/
import Idealize.ShloMosaic.Lib.Pipeline.Value
import Idealize.ShloMosaic.Lib.ValueIdx

namespace Cert.LibColumn

open Idealize.ShloMosaic Idealize.ShloMosaic.ValueIdx

variable {α : Type}

/-- An `[a, 1]` array broadcast to `[a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibUnitColumn.lean ====
/-
  A vector cast to a column, read at an index: an `[a]` array cast to `[a, 1]` reads, at `(i, u)`, the vector's
  entry `i`, whatever the unit coordinate `u`.
-/
import Idealize.ShloMosaic.Lib.Pipeline.Value
import Idealize.ShloMosaic.Lib.ValueIdx

namespace Cert.LibUnitColumn

open Idealize.ShloMosaic Idealize.ShloMosaic.ValueIdx

variable {α : Type}

/-- An `[a]` array cast to `[a, 1]` reads, at `(i, u)`, the operand at `i`: both indices have the row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibUnitColumn
-- ==== Proof.GroupRead.lean ====
/-
  One group's contribution, and the whole tile, read at an entry, with every float operation exact.

  For a group `w` of a weight block, row `o` of the dequantized group is the scalar dequantization of each entry
  `w o c` against the largest absolute value of row `o` of `w`: the kernel multiplies by the reciprocal of the scale,
  which is the division by it because the scale is not zero. Entry `(s, o)` of the group's product is then the sum
  over the group's 256 columns of the activation times that dequantized entry, and entry `(s, o)` of the tile, zero
  plus the sixteen products in order, is the sum over all 4096 columns.
-/
import proofs.«136252_j54803782697499_2_alg».proof.Proof.GroupTerm
import proofs.«136252_j54803782697499_2_alg».proof.Proof.QuantLaw
import proofs.«136252_j54803782697499_2_alg».proof.Proof.LibColumn
import proofs.«136252_j54803782697499_2_alg».proof.Proof.LibUnitColumn
import Idealize.ShloMosaic.Lib.ValueIdx
import Idealize.ShloMosaic.Lib.Pipeline.Value
import Idealize.ShloMosaic.PureOps.Ideal.Laws

set_option maxRecDepth 16384

noncomputable section

namespace Cert.KernelIdeal.Group

open Cert.KernelIdeal Cert.KernelIdeal.Gen Idealize.ShloMosaic Idealize.ShloMosaic.ValueIdx

/-- The source index over row `o` with column `c` put back on the reduced axis is `(o, c)`. -/
theorem lift_row (o : Fin 1024) (c : Fin 256) : reduces_S1024x256_S1024.lift (ix1 o) c = ix2 o c := by
  funext a
  apply Fin.ext
  match a with
  | ⟨0, _⟩ => rfl
  | ⟨1, _⟩ => rfl

/-- Rounding and the absolute value act entry by entry. -/
theorem roundeven_apply {s : Shape} {φ : FTy} (a : FVec Ideal s φ) (i : s.Idx) :
    roundeven a i = Ideal.liftRound Ideal.roundHalfEven (a i) := rfl
theorem absf_apply {s : Shape} {φ : FTy} (a : FVec Ideal s φ) (i : s.Idx) : absf a i = max (a i) (-(a i)) := rfl

/-- The maximum over the columns, at row `o`: the fold of `max` from minus infinity over that row's 256 entries. -/
theorem rowMax_apply (v : FVec Ideal S1024x256 .f32) (hφ : FKind.Formats .f32)
    (hacc : (0xFF800000#32 : BitVec (FTy.bits .f32)) = FKind.maximumf.neutral .f32 hφ) (o : Fin 1024) :
    multiReduction .maximumf [1] S1024 v 0xFF800000#32 reduces_S1024x256_S1024 hφ hacc (ix1 o)
      = (Finset.univ : Finset (Fin 256)).fold max Quant.negInfW fun c => v (ix2 o c) :=
  (Ideal.multiReduction_maximumf_single v 0xFF800000#32 reduces_S1024x256_S1024 hφ hacc (ix1 o)).trans
    (congrArg (fun f => Finset.fold max Quant.negInfW f Finset.univ) (funext fun c => congrArg v (lift_row o c)))

/-- Row `o` of the scale column is the scale of that row's largest absolute value. -/
theorem scaleCol_apply (w : Vec Ideal S1024x256 .f32) (o : Fin 1024) (u : Fin 1) :
    scaleCol w (ix2 o u) = Quant.scale (Quant.absMax fun c => w (ix2 o c)) := by
  unfold scaleCol
  rw [maximumf_apply, divf_apply, broadcast_apply, broadcast_apply, Cert.LibUnitColumn.shapeCast_a_a1_apply]
  exact congrArg (fun A => max (Ideal.div A Quant.topW) Quant.floorW) (rowMax_apply (absf w) _ _ o)

/-- Entry `(o, c)` of the dequantized group is the entry dequantized against its row's largest absolute value. -/
theorem dequantized_apply (w : Vec Ideal S1024x256 .f32) (o : Fin 1024) (c : Fin 256) :
    dequantized w (ix2 o c) = Quant.dequant (w (ix2 o c)) (Quant.absMax fun c' => w (ix2 o c')) := by
  unfold dequantized levels
  rw [truncf_apply, mulf_apply, minimumf_apply, maximumf_apply, broadcast_apply, broadcast_apply, roundeven_apply, mulf_apply,
    Cert.LibColumn.broadcastTo_a1_ab_apply, Cert.LibColumn.broadcastTo_a1_ab_apply, divf_apply, broadcast_apply, scaleCol_apply]
  exact Quant.dequant_of_recip _ _

theorem lhs_0 (i : S16x1024.Idx) (q : dot_S16x256_S1024x256_S16x1024_1_1_0_0_n_n.contr.Idx) : (dot_S16x256_S1024x256_S16x1024_1_1_0_0_n_n.lhsIdx i q 0).val = (i 0).val := by
  unfold DotDims.lhsIdx
  rw [dif_neg (show ¬(0 : Fin S16x256.rank) ∈ dot_S16x256_S1024x256_S16x1024_1_1_0_0_n_n.lhsBatch by decide),
    dif_pos (show (0 : Fin S16x256.rank) ∈ dot_S16x256_S1024x256_S16x1024_1_1_0_0_n_n.lhsNonContracting by decide)]
  rfl
theorem rhs_0 (i : S16x1024.Idx) (q : dot_S16x256_S1024x256_S16x1024_1_1_0_0_n_n.contr.Idx) : (dot_S16x256_S1024x256_S16x1024_1_1_0_0_n_n.rhsIdx i q 0).val = (i 1).val := by
  unfold DotDims.rhsIdx
  rw [dif_neg (show ¬(0 : Fin S1024x256.rank) ∈ dot_S16x256_S1024x256_S16x1024_1_1_0_0_n_n.rhsBatch by decide),
    dif_pos (show (0 : Fin S1024x256.rank) ∈ dot_S16x256_S1024x256_S16x1024_1_1_0_0_n_n.rhsNonContracting by decide)]
  rfl

/-- Entry `(s, o)` of a group's product: the sum over the group's columns of the activation, taken `off` columns
    along, times the dequantized entry. -/
theorem product_apply (xb : FVec Ideal S16x4096 .bf16) (off : ℕ) (hoff : off + 256 ≤ 4096)
    (h : S16x4096.Slices ![0, off] S16x256) (w : Vec Ideal S1024x256 .f32) (s : Fin 16) (o : Fin 1024) :
    product xb ![0, off] h w (ix2 s o)
      = ∑ c : Fin 256, xb (ix2 s ⟨off + c.val, by have := c.isLt; omega⟩)
          * Quant.dequant (w (ix2 o c)) (Quant.absMax fun c' => w (ix2 o c')) := by
  unfold product
  simp only [matmul]
  rw [Ideal.matmul_constant_zero_apply, ← Equiv.sum_comp (contrEquiv1 dot_S16x256_S1024x256_S16x1024_1_1_0_0_n_n 256 rfl rfl).symm]
  refine Finset.sum_congr rfl fun c _ => ?_
  have hk := contrEquiv1_symm_val dot_S16x256_S1024x256_S16x1024_1_1_0_0_n_n 256 rfl rfl c
  have el : dot_S16x256_S1024x256_S16x1024_1_1_0_0_n_n.lhsIdx (ix2 s o) ((contrEquiv1 dot_S16x256_S1024x256_S16x1024_1_1_0_0_n_n 256 rfl rfl).symm c) = ix2 s c :=
    funext fun a => Fin.ext (by
      match a with
      | ⟨0, _⟩ => exact lhs_0 _ _
      | ⟨1, _⟩ => exact (dot_S16x256_S1024x256_S16x1024_1_1_0_0_n_n.lhsIdx_val_of_single rfl _ _).trans hk)
  have er : dot_S16x256_S1024x256_S16x1024_1_1_0_0_n_n.rhsIdx (ix2 s o) ((contrEquiv1 dot_S16x256_S1024x256_S16x1024_1_1_0_0_n_n 256 rfl rfl).symm c) = ix2 o c :=
    funext fun a => Fin.ext (by
      match a with
      | ⟨0, _⟩ => exact rhs_0 _ _
      | ⟨1, _⟩ => exact (dot_S16x256_S1024x256_S16x1024_1_1_0_0_n_n.rhsIdx_val_of_single rfl _ _).trans hk)
  rw [el, er, dequantized_apply]
  refine congrArg (· * _) ?_
  exact extractStridedSlice_apply ![0, off] xb h (ix2 s c) (ix2 s ⟨off + c.val, by have := c.isLt; omega⟩) fun a => by
    match a with
    | ⟨0, _⟩ => exact (Nat.zero_add _).symm
    | ⟨1, _⟩ => rfl

/-- The activations as the body uses them are the loaded block itself: the cast to the same shape and the change of
    format change nothing. -/
theorem acts_apply (x0 : Vec Ideal S16x4096 .f32) (i : S16x4096.Idx) : k0_pay2 (View.ld x0 r0_0) i = x0 i := by
  unfold k0_pay2
  rw [truncf_apply]
  exact (congrFun (shapeCast_self (s := S16x4096) (View.ld x0 r0_0) shapeCasts_S16x4096_S16x4096) i).trans
    (congrFun (View.ld_unit_zero (S := S16x4096) (funext fun a => by fin_cases a <;> rfl) inb_S16x4096_S16x4096_0_0 x0) i)

/-- A group loaded `off` columns along reads the block `off` columns along. -/
theorem load_apply (x1 : Vec Ideal S1024x4096 .f32) (off : ℕ) (hoff : off + 256 ≤ 4096)
    (inb : ∀ a, (![0, off] : Fin 2 → Nat) a + S1024x256.size a ≤ S1024x4096.size a) (o : Fin 1024) (c : Fin 256) :
    View.ld x1 (Rect.unit (s := S1024x4096) ![0, off] S1024x256.size inb) (ix2 o c)
      = x1 (ix2 o ⟨off + c.val, by have := c.isLt; omega⟩) := by
  unfold View.ld
  refine congrArg x1 (funext fun a => Fin.ext ?_)
  match a with
  | ⟨0, _⟩ => show 0 + 1 * o.val = o.val; omega
  | ⟨1, _⟩ => show off + 1 * c.val = off + c.val; omega

/-- The group starting at a multiple of 256 is the group of each of its columns. -/
theorem groupCol_block (off : ℕ) (hoff : off + 256 ≤ 4096) (hdiv : off % 256 = 0) (c c' : Fin 256) :
    Quant.groupCol ⟨off + c.val, by have := c.isLt; omega⟩ c' = ⟨off + c'.val, by have := c'.isLt; omega⟩ := by
  apply Fin.ext
  show 256 * ((off + c.val) / 256) + c'.val = off + c'.val
  have := c.isLt
  omega

/-- One group's product at `(s, o)` is the block sum, over that group's columns, of the result's summand. -/
theorem block_eq (x0 : Vec Ideal S16x4096 .f32) (x1 : Vec Ideal S1024x4096 .f32) (s : Fin 16) (o : Fin 1024)
    (off : ℕ) (hoff : off + 256 ≤ 4096) (hdiv : off % 256 = 0) (h : S16x4096.Slices ![0, off] S16x256)
    (inb : ∀ a, (![0, off] : Fin 2 → Nat) a + S1024x256.size a ≤ S1024x4096.size a) :
    product (k0_pay2 (View.ld x0 r0_0)) ![0, off] h (View.ld x1 (Rect.unit (s := S1024x4096) ![0, off] S1024x256.size inb)) (ix2 s o)
      = Quant.blockSum (fun k => x0 (ix2 s k) * Quant.dequant (x1 (ix2 o k)) (Quant.absMax fun c => x1 (ix2 o (Quant.groupCol k c))))
          off hoff := by
  rw [product_apply _ off hoff]
  unfold Quant.blockSum
  refine Finset.sum_congr rfl fun c _ => ?_
  rw [acts_apply, load_apply x1 off hoff]
  refine congrArg (fun A => x0 _ * Quant.dequant _ (Quant.absMax A)) (funext fun c' => ?_)
  rw [load_apply x1 off hoff, groupCol_block off hoff hdiv]

/-- Entry `(s, o)` of the tile: the activations' row `s` against row `o` of the block, dequantized group by group,
    summed over all 4096 columns. -/
theorem tile_apply (x0 : Vec Ideal S16x4096 .f32) (x1 : Vec Ideal S1024x4096 .f32) (s : Fin 16) (o : Fin 1024) :
    tile x0 x1 (ix2 s o)
      = ∑ k : Fin 4096, x0 (ix2 s k) * Quant.dequant (x1 (ix2 o k)) (Quant.absMax fun c => x1 (ix2 o (Quant.groupCol k c))) := by
  rw [Quant.sum_blocks]
  unfold tile
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (Ideal.ofBits_zero_f32)
      (block_eq x0 x1 s o 0 (by decide) (by decide) _ _))
      (block_eq x0 x1 s o 256 (by decide) (by decide) _ _))
      (block_eq x0 x1 s o 512 (by decide) (by decide) _ _))
      (block_eq x0 x1 s o 768 (by decide) (by decide) _ _))
      (block_eq x0 x1 s o 1024 (by decide) (by decide) _ _))
      (block_eq x0 x1 s o 1280 (by decide) (by decide) _ _))
      (block_eq x0 x1 s o 1536 (by decide) (by decide) _ _))
      (block_eq x0 x1 s o 1792 (by decide) (by decide) _ _))
      (block_eq x0 x1 s o 2048 (by decide) (by decide) _ _))
      (block_eq x0 x1 s o 2304 (by decide) (by decide) _ _))
      (block_eq x0 x1 s o 2560 (by decide) (by decide) _ _))
      (block_eq x0 x1 s o 2816 (by decide) (by decide) _ _))
      (block_eq x0 x1 s o 3072 (by decide) (by decide) _ _))
      (block_eq x0 x1 s o 3328 (by decide) (by decide) _ _))
      (block_eq x0 x1 s o 3584 (by decide) (by decide) _ _))
      (block_eq x0 x1 s o 3840 (by decide) (by decide) _ _)

end Cert.KernelIdeal.Group

end
-- ==== Proof.Result.lean ====
/-
  The result as an array: entry `(u, s, o)` of the [1, 16, 14336] result is entry `(s, o)` of the product of the
  activations with the transpose of the dequantized weights, the arguments read by coordinates.
-/
import proofs.«136252_j54803782697499_2_alg».proof.Proof.QuantLaw
import Idealize.ShloMosaic.Lib.ValueIdx

noncomputable section

namespace Cert.Quant

open Idealize.ShloMosaic Idealize.ShloMosaic.ValueIdx

/-- The result array of the activations `x0` ([1, 16, 4096]) and the weights `x1` ([14336, 4096]). -/
def resultArr (x0 : (⟨3, ![1, 16, 4096]⟩ : Shape).Idx → EReal) (x1 : (⟨2, ![14336, 4096]⟩ : Shape).Idx → EReal) :
    (⟨3, ![1, 16, 14336]⟩ : Shape).Idx → EReal := fun i =>
  result (fun s k => x0 (ix3 (0 : Fin 1) s k)) (fun o k => x1 (ix2 o k)) (i 1) (i 2)

end Cert.Quant

end
-- ==== Proof.KernelRun.lean ====
/-
  From the tiles to the whole result.

  Point `t` of the grid reads all of the activations and rows `1024 t … 1024 t + 1023` of the weights, and writes
  columns `1024 t … 1024 t + 1023` of the [16, 14336] output. The activations reach the kernel reshaped from
  [1, 16, 4096] to [16, 4096], and the output leaves it with a unit axis put in front. Entry `(s, q)` of the tile at
  point `t` is entry `(s, 1024 t + q)` of the result, because row `q` of the weight block is row `1024 t + q` of the
  weights; column `o` of the output lies in the tile of point `o / 1024`, so the fourteen tiles cover the output, and
  the program's result is the result of the arguments, entry by entry.
-/
import proofs.«136252_j54803782697499_2_alg».proof.Proof.GroupRead
import proofs.«136252_j54803782697499_2_alg».proof.Proof.Result
import Idealize.ShloMosaic.Lib.StableHlo.Run
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The [16, 14336] output as a function of the argument arrays. -/
def outArr (c : Dev nD) : S16x14336.Idx → EReal := fun i =>
  Quant.result (fun s k => m ((c : Thread nD τ).loc main_arg0) (ix3 (0 : Fin 1) s k))
    (fun o k => m ((c : Thread nD τ).loc main_arg1) (ix2 o k)) (i 0) (i 1)

/-- The kernel finds the activations reshaped to [16, 4096]. -/
theorem V_main_v0 (c : Dev nD) :
    (V m c main_v0 : S16x4096.Idx → EReal)
      = shapeCast S16x4096 (m ((c : Thread nD τ).loc main_arg0)) shapeCasts_S1x16x4096_S16x4096 := by
  show StableHlo.after hostOps0 (fun b => m (c, b)) (Proc.devRef .tc main_v0) = _
  after_results
  rfl

/-- Where each window's block sits at point `t`: the activations' always at the origin, the weights' `t` blocks down,
    the output's `t` blocks along. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- Every point of the grid is one of fourteen. -/
theorem point_lt (t : Fin cfg0.N) : t.val < 14 := lt_of_lt_of_eq t.isLt N_0

/-- The activations' block at any point, read at `(p, k)`: the activations at `(0, p, k)`. -/
theorem acts_blk (c : Dev nD) (t : Fin cfg0.N) (p : Fin 16) (k : Fin 4096) :
    iblk m c 0 t (ix2 p k) = m ((c : Thread nD τ).loc main_arg0) (ix3 (0 : Fin 1) p k) := by
  obtain ⟨e00, e01, -, -, -, -⟩ := idx_facts t
  have he : ((cfg0.win 0).blk t).view.emb (ix2 p k) = ix2 p k := by
    funext a; apply Fin.ext
    match a with
    | ⟨0, _⟩ => show win0_0.index t (0 : Fin 2) * 16 + 1 * p.val = p.val; omega
    | ⟨1, _⟩ => show win0_0.index t (1 : Fin 2) * 4096 + 1 * k.val = k.val; omega
  show V m c main_v0 (((cfg0.win 0).blk t).view.emb (ix2 p k)) = _
  exact (congrArg (V m c main_v0) he).trans
    ((congrFun (V_main_v0 m c) (ix2 p k)).trans (shapeCast_1ab_ab_apply _ shapeCasts_S1x16x4096_S16x4096 p k))

/-- The weights' block at point `t`, read at `(q, k)`: the weights at `(1024 t + q, k)`. -/
theorem wts_blk (c : Dev nD) (t : Fin cfg0.N) (q : Fin 1024) (k : Fin 4096) :
    iblk m c 1 t (ix2 q k) = m ((c : Thread nD τ).loc main_arg1)
      (ix2 (⟨1024 * t.val + q.val, by have := point_lt t; have := q.isLt; omega⟩ : Fin 14336) k) := by
  obtain ⟨-, -, e10, e11, -, -⟩ := idx_facts t
  have he : ((cfg0.win 1).blk t).view.emb (ix2 q k)
      = ix2 (⟨1024 * t.val + q.val, by have := point_lt t; have := q.isLt; omega⟩ : Fin 14336) k := by
    funext a; apply Fin.ext
    match a with
    | ⟨0, _⟩ => show win0_1.index t (0 : Fin 2) * 1024 + 1 * q.val = 1024 * t.val + q.val; omega
    | ⟨1, _⟩ => show win0_1.index t (1 : Fin 2) * 4096 + 1 * k.val = k.val; omega
  show V m c main_arg1 (((cfg0.win 1).blk t).view.emb (ix2 q k)) = _
  exact (congrArg (V m c main_arg1) he).trans (congrFun (V_main_arg1 m c) _)

/-- What point `t` writes back is block `t` of the output: the tile's entry `(p, q)` is the result at
    `(p, 1024 t + q)`. -/
theorem flushed_eq (c : Dev nD) (t : Fin cfg0.N) :
    (dats m 0 c).flushed 2 t = ((cfg0.win 2).blk t).view.read (Elt Ideal) (outArr m c) := by
  show (cfg0.win 2).cut (grid0.coords t) ((dats m 0 c).after 2 t) = _
  rw [after0_2, Group.out_eq_tile]
  have ht := point_lt t
  obtain ⟨-, -, -, -, e20, e21⟩ := idx_facts t
  show (Group.tile (iblk m c 0 t) (iblk m c 1 t) : S16x1024.Idx → EReal)
    = fun j => outArr m c (((cfg0.win 2).blk t).view.emb j)
  funext j
  obtain ⟨p, q, rfl⟩ : ∃ (p : Fin 16) (q : Fin 1024), j = ix2 p q := ⟨j 0, j 1, eq_ix2 j⟩
  have hq := q.isLt
  have he : ((cfg0.win 2).blk t).view.emb (ix2 p q) = ix2 p (⟨1024 * t.val + q.val, by omega⟩ : Fin 14336) := by
    funext a; apply Fin.ext
    match a with
    | ⟨0, _⟩ => show win0_2.index t (0 : Fin 2) * 16 + 1 * p.val = p.val; omega
    | ⟨1, _⟩ => show win0_2.index t (1 : Fin 2) * 1024 + 1 * q.val = 1024 * t.val + q.val; omega
  refine (Group.tile_apply (iblk m c 0 t) (iblk m c 1 t) p q).trans ?_
  refine Eq.trans ?_ (congrArg (outArr m c) he).symm
  show _ = Quant.result _ _ p (⟨1024 * t.val + q.val, by omega⟩ : Fin 14336)
  unfold Quant.result Quant.dequantW
  refine Finset.sum_congr rfl fun k _ => ?_
  rw [acts_blk m c t p k, wts_blk m c t q k]
  refine congrArg (fun A => _ * Quant.dequant _ (Quant.absMax A)) (funext fun c' => ?_)
  exact wts_blk m c t q _

/-- An entry of the output is in point `t`'s block iff each coordinate is in the block's range on its axis. -/
theorem mem_blk (t : Fin cfg0.N) (i : S16x14336.Idx) :
    i ∈ ((cfg0.win 2).blk t).view.set ↔ ∀ a : Fin 2, win0_2.index t a * S16x1024.size a ≤ (i a).val
      ∧ (i a).val < win0_2.index t a * S16x1024.size a + S16x1024.size a := by
  show i ∈ ((View.whole main_v1).slice (win0_2.rect t)).set ↔ _
  rw [View.set_slice_whole, Rect.mem_set_unit]
  exact Iff.rfl

/-- Column `o` of the output lies in the block of point `o / 1024`: the fourteen blocks cover the output. -/
theorem cover (i : S16x14336.Idx) :
    ∃ t : Fin cfg0.N, (cfg0.win 2).flush t = true ∧ i ∈ ((cfg0.win 2).blk t).view.set := by
  have hi0 : (i 0).val < 16 := (i 0).isLt
  have hi1 : (i 1).val < 14336 := (i 1).isLt
  have hN : (i 1).val / 1024 < grid0.N := by rw [N_0]; omega
  obtain ⟨-, -, -, -, e20, e21⟩ := idx_facts ⟨(i 1).val / 1024, hN⟩
  refine ⟨⟨(i 1).val / 1024, hN⟩, flush0_2 _, ?_⟩
  rw [mem_blk]
  intro a
  match a with
  | ⟨0, _⟩ =>
    show win0_2.index ⟨(i 1).val / 1024, hN⟩ (0 : Fin 2) * 16 ≤ (i 0).val
      ∧ (i 0).val < win0_2.index ⟨(i 1).val / 1024, hN⟩ (0 : Fin 2) * 16 + 16
    omega
  | ⟨1, _⟩ =>
    show win0_2.index ⟨(i 1).val / 1024, hN⟩ (1 : Fin 2) * 1024 ≤ (i 1).val
      ∧ (i 1).val < win0_2.index ⟨(i 1).val / 1024, hN⟩ (1 : Fin 2) * 1024 + 1024
    have e : win0_2.index ⟨(i 1).val / 1024, hN⟩ (1 : Fin 2) = (i 1).val / 1024 := e21
    omega

/-- The output array after the run. -/
theorem final (c : Dev nD) : (dats m 0 c).arrAt 2 cfg0.N = outArr m c :=
  (dats m 0 c).arrAt_eq_of_cover 2 (outArr m c) (fun t _ => flushed_eq m c t) (cover)

/-- With the unit axis in front, the output is the result array of the arguments. -/
theorem bcast_eq (c : Dev nD) :
    broadcastInDim S1x16x14336 ![1, 2] bcast_S16x14336_S1x16x14336_1_2 (outArr m c)
      = Quant.resultArr (m ((c : Thread nD τ).loc main_arg0)) (m ((c : Thread nD τ).loc main_arg1)) := by
  funext i
  exact broadcastInDim_apply _ bcast_S16x14336_S1x16x14336_1_2 (outArr m c) i (ix2 (i 1) (i 2)) (fun a => match a with
    | ⟨0, _⟩ => by show (i 1).val = if (16 : Nat) = 1 then 0 else (i 1).val; rw [if_neg (by decide)]
    | ⟨1, _⟩ => by show (i 2).val = if (14336 : Nat) = 1 then 0 else (i 2).val; rw [if_neg (by decide)])

/-- The program's result after the lines that follow the kernel. -/
theorem tail_eq (c : Dev nD) :
    Pipeline.afterTail₀ cfgs (dats m) 0 (V0 m) [hostOps1] c main_v2
      = Quant.resultArr (m ((c : Thread nD τ).loc main_arg0)) (m ((c : Thread nD τ).loc main_arg1)) := by
  refine Eq.trans ?_ (bcast_eq m c)
  unfold Pipeline.afterTail₀
  show StableHlo.after hostOps1 _ (Proc.devRef .tc main_v2) = _
  after_results
  exact congrArg _ ((Pipeline.withArrays_arr spec0 launch0.win.arr_inj c _ _ 2).trans (final m c))

/-- Every weakly fair execution of the program ends with the result array of the arguments in its result buffer and
    the arguments as they were. -/
theorem run : θ_run defs (onTc (τ := τ) (main (F := Ideal))) ⟨m, fun _ => 0, ρ⟩ fun r => ∀ c : Dev nD,
      r.2.mem ((c.tc : Thread nD τ).loc main_v2)
        = Quant.resultArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v2 (Pipeline.mem_restRefs_of main_v2 (by decide) (by decide))).trans (tail_eq m c),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c)))⟩)
    (run_main m ρ)

end Cert.KernelIdeal.Whole

end
-- ==== Proof.RefRead.lean ====
/-
  The reference's result, read at an entry, with every float operation exact.

  The reference reshapes the weights to [rows, 16 groups, 256 columns], takes each group's largest absolute value,
  forms the scale, divides, rounds, clips, multiplies back, reshapes to [rows, 4096] and multiplies the activations by
  the transpose. Entry `(o, g, c)` of the reshaped weights is entry `(o, 256 g + c)` of the weights, so every stage
  at `(o, g, c)` is the scalar computation on that entry and its group, and entry `(s, o)` of the product is the sum
  over the 4096 columns `k` of the activation at `(s, k)` times the dequantized weight at `(o, k)`, whose group is
  `k / 256` and whose column within the group is `k % 256`.
-/
import proofs.«136252_j54803782697499_2_alg».proof.Proof.Gen.ReferenceIdeal.Read
import proofs.«136252_j54803782697499_2_alg».proof.Proof.QuantLaw
import proofs.«136252_j54803782697499_2_alg».proof.Proof.Result
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.ValueIdx

/-- Dropping the last of the three axes leaves the first two. -/
theorem rowReduces : S14336x16x256.Reduces [2] S14336x16 := by decide

/-- The source index over `(o, g)` with column `c` put back on the reduced axis is `(o, g, c)`. -/
theorem lift_group (o : Fin 14336) (g : Fin 16) (c : Fin 256) : rowReduces.lift (ix2 o g) c = ix3 o g c := by
  funext a
  apply Fin.ext
  match a with
  | ⟨0, _⟩ => rfl
  | ⟨1, _⟩ => rfl
  | ⟨2, _⟩ => rfl

/-- Column `c` of group `g`, as a column of the weights. -/
def col (g : Fin 16) (c : Fin 256) : Fin 4096 := ⟨256 * g.val + c.val, by have := g.isLt; have := c.isLt; omega⟩

/-- The reshaped weights at `(o, g, c)` are the weights at `(o, 256 g + c)`. -/
theorem v0_apply (x1 : (⟨S14336x4096, .f32⟩ : BufTy).Contents (Elt Ideal)) (o : Fin 14336) (g : Fin 16) (c : Fin 256) :
    val_main_v0 (F := Ideal) x1 (ix3 o g c) = x1 (ix2 o (col g c)) := by
  rw [val_main_v0_apply]
  refine congrArg x1 (funext fun a => Fin.ext ?_)
  have := g.isLt
  have := c.isLt
  match a with
  | ⟨0, _⟩ => show ((o.val * 16 + g.val) * 256 + c.val) / 4096 = o.val; omega
  | ⟨1, _⟩ => show ((o.val * 16 + g.val) * 256 + c.val) % 4096 = 256 * g.val + c.val; omega

/-- The reduced maximum at `(o, g)` is the largest absolute value of that group. -/
theorem v2_apply (x1 : (⟨S14336x4096, .f32⟩ : BufTy).Contents (Elt Ideal)) (o : Fin 14336) (g : Fin 16) :
    val_main_v2 (F := Ideal) x1 (ix2 o g) = Quant.absMax fun c => x1 (ix2 o (col g c)) := by
  unfold val_main_v2
  refine (Host.reduce_eq_fold_single (α := EReal) (FloatOps.maximumf (F := Ideal) (φ := .f32)) (val_main_v1 (F := Ideal) x1)
    (val_main_cst (F := Ideal)) reducesTo_S14336x16x256_S14336x16_d2 rowReduces h_S_ (ix2 o g)).trans ?_
  unfold Quant.absMax
  refine congrArg (fun f => Finset.fold max Quant.negInfW f Finset.univ) (funext fun c => ?_)
  exact (congrArg (fun i => FloatOps.hostAbsf (F := Ideal) (φ := .f32) (val_main_v0 (F := Ideal) x1 i)) (lift_group o g c)).trans
    (congrArg (fun z : EReal => max z (-z)) (v0_apply x1 o g c))

/-- The scale at `(o, g)`. -/
theorem v7_apply (x1 : (⟨S14336x4096, .f32⟩ : BufTy).Contents (Elt Ideal)) (o : Fin 14336) (g : Fin 16) (u : Fin 1) :
    val_main_v7 (F := Ideal) x1 (ix3 o g u) = Quant.scale (Quant.absMax fun c => x1 (ix2 o (col g c))) := by
  rw [val_main_v7_apply, val_main_v5_apply, val_main_v3_apply, val_main_v4_apply, val_main_cst_0_apply, val_main_v6_apply,
    val_main_cst_1_apply]
  rw [show idx_main_v3 (ix3 o g u) = ix2 o g from funext fun a => Fin.ext (by
    match a with
    | ⟨0, _⟩ => rfl
    | ⟨1, _⟩ => rfl), v2_apply]
  rfl

/-- The dequantized weights at `(o, g, c)`: the entry dequantized against its group's largest absolute value. -/
theorem v13_apply (x1 : (⟨S14336x4096, .f32⟩ : BufTy).Contents (Elt Ideal)) (o : Fin 14336) (g : Fin 16) (c : Fin 256) :
    val_main_v13 (F := Ideal) x1 (ix3 o g c)
      = Quant.dequant (x1 (ix2 o (col g c))) (Quant.absMax fun c' => x1 (ix2 o (col g c'))) := by
  have e8 : idx_main_v8 (ix3 o g c) = ix3 o g (0 : Fin 1) := funext fun a => Fin.ext (by
    match a with
    | ⟨0, _⟩ => rfl
    | ⟨1, _⟩ => rfl
    | ⟨2, _⟩ => rfl)
  have e12 : idx_main_v12 (ix3 o g c) = ix3 o g (0 : Fin 1) := funext fun a => Fin.ext (by
    match a with
    | ⟨0, _⟩ => rfl
    | ⟨1, _⟩ => rfl
    | ⟨2, _⟩ => rfl)
  rw [val_main_v13_apply, val_main_v11_apply, val_main_call1_v4_apply, val_main_call1_v3_apply, val_main_cst_3_apply,
    val_main_call1_v2_apply, val_main_call1_v1_apply, val_main_call1_v0_apply, val_main_cst_2_apply, val_main_v10_apply,
    val_main_v9_apply, val_main_v8_apply, val_main_v12_apply, v0_apply, e8, e12, v7_apply]
  rfl

/-- Entry `(s, o)` of the reference's result is the result of the arguments read by coordinates. -/
theorem ref_apply (x0 : (⟨S1x16x4096, .f32⟩ : BufTy).Contents (Elt Ideal)) (x1 : (⟨S14336x4096, .f32⟩ : BufTy).Contents (Elt Ideal))
    (u : Fin 1) (s : Fin 16) (o : Fin 14336) :
    val_main_v17 (F := Ideal) x0 x1 (ix3 u s o)
      = Quant.result (fun s k => x0 (ix3 (0 : Fin 1) s k)) (fun o k => x1 (ix2 o k)) s o := by
  rw [val_main_v17_apply, val_main_v16_apply]
  unfold Quant.result
  refine Finset.sum_congr rfl fun k _ => ?_
  have hs := s.isLt
  have hk := k.isLt
  have el : idx_main_v15 (lidx_main_v16 (idx_main_v17 (ix3 u s o)) k) = ix3 (0 : Fin 1) s k := funext fun a => Fin.ext (by
    match a with
    | ⟨0, _⟩ => rfl
    | ⟨1, _⟩ => show (s.val * 4096 + k.val) / 4096 % 16 = s.val; omega
    | ⟨2, _⟩ => show (s.val * 4096 + k.val) % 4096 = k.val; omega)
  have er : idx_main_v14 (ridx_main_v16 (idx_main_v17 (ix3 u s o)) k)
      = ix3 o (⟨k.val / 256, by omega⟩ : Fin 16) (⟨k.val % 256, by omega⟩ : Fin 256) := funext fun a => Fin.ext (by
    match a with
    | ⟨0, _⟩ => show (o.val * 4096 + k.val) / 4096 = o.val; omega
    | ⟨1, _⟩ => show (o.val * 4096 + k.val) / 256 % 16 = k.val / 256; omega
    | ⟨2, _⟩ => show (o.val * 4096 + k.val) % 256 = k.val % 256; omega)
  have ek : col (⟨k.val / 256, by omega⟩ : Fin 16) (⟨k.val % 256, by omega⟩ : Fin 256) = k :=
    Fin.ext (by show 256 * (k.val / 256) + k.val % 256 = k.val; omega)
  rw [val_main_v15_apply, val_main_v14_apply, el, er, v13_apply, ek]
  rfl

/-- The reference's result array is the result array of its arguments. -/
theorem ref_eq (x0 : (⟨S1x16x4096, .f32⟩ : BufTy).Contents (Elt Ideal)) (x1 : (⟨S14336x4096, .f32⟩ : BufTy).Contents (Elt Ideal)) :
    val_main_v17 (F := Ideal) x0 x1 = Quant.resultArr x0 x1 :=
  funext fun i => (congrArg (val_main_v17 (F := Ideal) x0 x1) (eq_ix3 i)).trans (ref_apply x0 x1 (i 0) (i 1) (i 2))

end Cert.ReferenceIdeal.RefValue

end
-- ==== Proof.lean ====
/-
  A weight matrix quantized to four bits in groups of 256, dequantized, and multiplied by the activations: the kernel
  against its reference, as extended reals.

  Both programs compute, for activations X ([1, 16, 4096]) and weights W ([14336, 4096]), the array whose entry
  (0, s, o) is the sum over the 4096 columns k of X(0, s, k) times the dequantized W(o, k): with A the largest absolute
  value among the 256 entries of row o in k's group and s = max (A / 7) ε the group's scale, the dequantized entry is
  min 7 (max (-8) (round (W(o, k) / s))) · s. The reference divides by the scale; the kernel multiplies by its
  reciprocal, which is the same number because the scale is at least the positive ε and so not zero. The reference
  takes one sum over 4096 columns; the kernel adds sixteen sums over 256 columns one after another, tile by tile over
  fourteen blocks of 1024 output columns: the same sum. Neither step needs the inputs to be finite, so the
  precondition is not used. Changes of float format are the identity on extended reals.

  The three frame claims are the generated frame of each kernel program and, for the reference, its run with the
  result dropped. The idealization rewrote nothing, so it is preserved trivially.
-/
import proofs.«136252_j54803782697499_2_alg».proof.Defs
import proofs.«136252_j54803782697499_2_alg».proof.Proof.Gen.Kernel
import proofs.«136252_j54803782697499_2_alg».proof.Proof.Gen.Kernel.Frame
import proofs.«136252_j54803782697499_2_alg».proof.Proof.Gen.KernelIdeal
import proofs.«136252_j54803782697499_2_alg».proof.Proof.Gen.KernelIdeal.Frame
import proofs.«136252_j54803782697499_2_alg».proof.Proof.Gen.ReferenceIdeal
import proofs.«136252_j54803782697499_2_alg».proof.Proof.Gen.Pre_finite_inputs
import proofs.«136252_j54803782697499_2_alg».proof.Proof.Gen.ReferenceIdeal.Run
import proofs.«136252_j54803782697499_2_alg».proof.Proof.Gen.ReferenceIdeal.Read
import proofs.«136252_j54803782697499_2_alg».proof.Proof.KernelRun
import proofs.«136252_j54803782697499_2_alg».proof.Proof.RefRead
import Idealize.ShloMosaic.Adequacy
import Idealize.ShloMosaic.Init

noncomputable section

namespace Cert.Proof

open Idealize.ShloMosaic Idealize.SL.Sem

/-- The kernel as printed runs and leaves its arguments unchanged. -/
theorem frame_kernel [Cert.Kernel.Facts] [Cert.Pre_finite_inputs.Facts] : Cert.frame_Kernel :=
  fun m ρ _ => Cert.Kernel.Gen.frame m ρ

/-- So does the kernel read over the extended reals. -/
theorem frame_kernelIdeal [Cert.KernelIdeal.Facts] [Cert.Pre_finite_inputs.Facts] : Cert.frame_KernelIdeal :=
  fun m ρ _ => Cert.KernelIdeal.Gen.frame m ρ

/-- And the reference: its run, with what it says of the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the arguments, both programs end with the result array of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
